-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x64x256 : Shape := ⟨4, ![8, 64, 64, 256]⟩
abbrev S64x64x4096 : Shape := ⟨3, ![64, 64, 4096]⟩
abbrev S_ : Shape := ⟨0, ![]⟩

class Facts : Prop where
  bcast_S_S8x64x64x256 : S_.BroadcastsInDim S8x64x64x256 (![] : Fin 0 → Fin S8x64x64x256.rank)
  reducesTo_S8x64x64x256_S_d0_1_2_3 : S8x64x64x256.ReducesTo [0, 1, 2, 3] S_
  h_S_ : 0 < S_.numel
  bcast_S_S64x64x4096 : S_.BroadcastsInDim S64x64x4096 (![] : Fin 0 → Fin S64x64x4096.rank)
  reducesTo_S64x64x4096_S_d0_1_2 : S64x64x4096.ReducesTo [0, 1, 2] S_

variable [Facts]

def fn {F : FTy → Type} [FloatOps F] (main_arg0 : FVec F S8x64x64x256 .f32) (main_arg1 : FVec F S8x64x64x256 .f32) (main_arg2 : FVec F S64x64x4096 .f32) : IVec S_ 1 :=
  let main_v0 : FVec F S8x64x64x256 .f32 := Host.absf main_arg0
  let main_cst : FVec F S_ .f32 := constant S_ .f32 0x7F800000#32
  let main_v1 : FVec F S8x64x64x256 .f32 := broadcastInDim S8x64x64x256 ![] bcast_S_S8x64x64x256 main_cst
  let main_v2 : IVec S8x64x64x256 1 := cmpf .olt main_v0 main_v1
  let main_c : IVec S_ 1 := constantI S_ 1 1#1
  let main_v3 : IVec S_ 1 := (fun x v => Host.reduce IntOp.andi x v reducesTo_S8x64x64x256_S_d0_1_2_3 h_S_) main_v2 main_c
  let main_v4 : FVec F S8x64x64x256 .f32 := Host.absf main_arg1
  let main_cst_0 : FVec F S_ .f32 := constant S_ .f32 0x7F800000#32
  let main_v5 : FVec F S8x64x64x256 .f32 := broadcastInDim S8x64x64x256 ![] bcast_S_S8x64x64x256 main_cst_0
  let main_v6 : IVec S8x64x64x256 1 := cmpf .olt main_v4 main_v5
  let main_c_1 : IVec S_ 1 := constantI S_ 1 1#1
  let main_v7 : IVec S_ 1 := (fun x v => Host.reduce IntOp.andi x v reducesTo_S8x64x64x256_S_d0_1_2_3 h_S_) main_v6 main_c_1
  let main_v8 : IVec S_ 1 := andi main_v3 main_v7
  let main_v9 : FVec F S64x64x4096 .f32 := Host.absf main_arg2
  let main_cst_2 : FVec F S_ .f32 := constant S_ .f32 0x7F800000#32
  let main_v10 : FVec F S64x64x4096 .f32 := broadcastInDim S64x64x4096 ![] bcast_S_S64x64x4096 main_cst_2
  let main_v11 : IVec S64x64x4096 1 := cmpf .olt main_v9 main_v10
  let main_c_3 : IVec S_ 1 := constantI S_ 1 1#1
  let main_v12 : IVec S_ 1 := (fun x v => Host.reduce IntOp.andi x v reducesTo_S64x64x4096_S_d0_1_2 h_S_) main_v11 main_c_3
  let main_v13 : IVec S_ 1 := andi main_v8 main_v12
  main_v13
-- ==== Kernel.lean ====
abbrev S8x64x64x256 : Shape := ⟨4, ![8, 64, 64, 256]⟩
abbrev S64x64x4096 : Shape := ⟨3, ![64, 64, 4096]⟩
abbrev S8x4096x256 : Shape := ⟨3, ![8, 4096, 256]⟩
abbrev S4096x4096 : Shape := ⟨2, ![4096, 4096]⟩
abbrev S8x4096x4096 : Shape := ⟨3, ![8, 4096, 4096]⟩
abbrev S1x512x256 : Shape := ⟨3, ![1, 512, 256]⟩
abbrev S1x4096x256 : Shape := ⟨3, ![1, 4096, 256]⟩
abbrev S4096x512 : Shape := ⟨2, ![4096, 512]⟩
abbrev S1x4096x512 : Shape := ⟨3, ![1, 4096, 512]⟩
abbrev S512x256 : Shape := ⟨2, ![512, 256]⟩
abbrev S4096x256 : Shape := ⟨2, ![4096, 256]⟩
abbrev S512 : Shape := ⟨1, ![512]⟩
abbrev S1x512 : Shape := ⟨2, ![1, 512]⟩
abbrev S8x64x64x4096 : Shape := ⟨4, ![8, 64, 64, 4096]⟩

abbrev nBuf : Space → Nat
  | .hbm => 8
  | .vmem => 8
  | .smem => 0
  | _ => 0

abbrev bufTy : (tb : Table) → Fin (tcTables nBuf tb) → BufTy
  | .hbm, ⟨0, _⟩ => ⟨S8x64x64x256, .f32⟩
  | .hbm, ⟨1, _⟩ => ⟨S8x64x64x256, .f32⟩
  | .hbm, ⟨2, _⟩ => ⟨S64x64x4096, .f32⟩
  | .hbm, ⟨3, _⟩ => ⟨S8x4096x256, .f32⟩
  | .hbm, ⟨4, _⟩ => ⟨S8x4096x256, .f32⟩
  | .hbm, ⟨5, _⟩ => ⟨S4096x4096, .f32⟩
  | .hbm, ⟨6, _⟩ => ⟨S8x4096x4096, .f32⟩
  | .hbm, ⟨7, _⟩ => ⟨S8x64x64x4096, .f32⟩
  | .local _ .vmem, ⟨0, _⟩ => ⟨S1x512x256, .f32⟩
  | .local _ .vmem, ⟨1, _⟩ => ⟨S1x512x256, .f32⟩
  | .local _ .vmem, ⟨2, _⟩ => ⟨S1x4096x256, .f32⟩
  | .local _ .vmem, ⟨3, _⟩ => ⟨S1x4096x256, .f32⟩
  | .local _ .vmem, ⟨4, _⟩ => ⟨S4096x512, .f32⟩
  | .local _ .vmem, ⟨5, _⟩ => ⟨S4096x512, .f32⟩
  | .local _ .vmem, ⟨6, _⟩ => ⟨S1x4096x512, .f32⟩
  | .local _ .vmem, ⟨7, _⟩ => ⟨S1x4096x512, .f32⟩
  | _, _ => ⟨S8x64x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4096x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S8x64x64x256_S8x4096x256 : S8x64x64x256.ShapeCasts S8x4096x256
  shapeCasts_S64x64x4096_S4096x4096 : S64x64x4096.ShapeCasts S4096x4096
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  reduces_S4096x512_S512 : S4096x512.Reduces [0] S512
  shapeCasts_S512_S1x512 : S512.ShapeCasts S1x512
  broadcasts_S1x512_S4096x512 : S1x512.Broadcasts S4096x512
  inb_S1x4096x512_S1x4096x512_0_0_0 : ∀ a, (![0, 0, 0] : Fin 3 → Nat) a + S1x4096x512.size a ≤ S1x4096x512.size a
  h_S1x4096x512 : 0 < S1x4096x512.numel
  shapeCasts_S1x4096x512_S4096x512 : S1x4096x512.ShapeCasts S4096x512
  shapeCasts_S4096x512_S1x4096x512 : S4096x512.ShapeCasts S1x4096x512
  shapeCasts_S8x4096x4096_S8x64x64x4096 : S8x4096x4096.ShapeCasts S8x64x64x4096
  dot_S4096x256_S512x256_S4096x512_1_1_0_0_n_n_wf : DotDims.WF S4096x256 S512x256 S4096x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x256.size a ≤ S8x4096x256.size a
  hwx0_0 : ∀ i : grid0.Coords, EltTy.bits .f32 = 32 ∨ (Rect.block (s := S8x4096x256) S1x512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x256.size a ≤ S8x4096x256.size a
  hwx0_1 : ∀ i : grid0.Coords, EltTy.bits .f32 = 32 ∨ (Rect.block (s := S8x4096x256) S1x4096x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x512.size a ≤ S4096x4096.size a
  hwx0_2 : ∀ i : grid0.Coords, EltTy.bits .f32 = 32 ∨ (Rect.block (s := S4096x4096) S4096x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4096x512.size a ≤ S8x4096x4096.size a
  hwx0_3 : ∀ i : grid0.Coords, EltTy.bits .f32 = 32 ∨ (Rect.block (s := S8x4096x4096) S1x4096x512.size (cc0_transform_3 i) (hinb0_3 i)).WholeWords (EltTy.packing .f32)

variable [Facts₀]

def dot_S4096x256_S512x256_S4096x512_1_1_0_0_n_n : DotDims S4096x256 S512x256 S4096x512 where
  lhsContracting := [1]
  rhsContracting := [1]
  lhsNonContracting := [0]
  rhsNonContracting := [0]
  lhsBatch := []
  rhsBatch := []
  wf := dot_S4096x256_S512x256_S4096x512_1_1_0_0_n_n_wf

abbrev win0_0 : Pipeline.Window sig grid0 :=
  Pipeline.Window.ofSpec (Memref.whole main_v0) S1x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4096x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x4096x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x64x64x256 : Shape := ⟨4, ![8, 64, 64, 256]⟩
abbrev S64x64x4096 : Shape := ⟨3, ![64, 64, 4096]⟩
abbrev S8x4096x256 : Shape := ⟨3, ![8, 4096, 256]⟩
abbrev S8x4096x4096 : Shape := ⟨3, ![8, 4096, 4096]⟩
abbrev S8x64x64x4096 : Shape := ⟨4, ![8, 64, 64, 4096]⟩
abbrev S1x64x64x4096 : Shape := ⟨4, ![1, 64, 64, 4096]⟩
abbrev S_ : Shape := ⟨0, ![]⟩
abbrev S8x4096 : Shape := ⟨2, ![8, 4096]⟩
abbrev S8x1x1x4096 : Shape := ⟨4, ![8, 1, 1, 4096]⟩

abbrev nBuf : Space → Nat
  | .hbm => 21
  | .vmem => 0
  | .smem => 0
  | _ => 0

abbrev bufTy : (tb : Table) → Fin (tcTables nBuf tb) → BufTy
  | .hbm, ⟨0, _⟩ => ⟨S8x64x64x256, .f32⟩
  | .hbm, ⟨1, _⟩ => ⟨S8x64x64x256, .f32⟩
  | .hbm, ⟨2, _⟩ => ⟨S64x64x4096, .f32⟩
  | .hbm, ⟨3, _⟩ => ⟨S8x4096x256, .f32⟩
  | .hbm, ⟨4, _⟩ => ⟨S8x4096x256, .f32⟩
  | .hbm, ⟨5, _⟩ => ⟨S8x4096x4096, .f32⟩
  | .hbm, ⟨6, _⟩ => ⟨S8x64x64x4096, .f32⟩
  | .hbm, ⟨7, _⟩ => ⟨S1x64x64x4096, .f32⟩
  | .hbm, ⟨8, _⟩ => ⟨S8x64x64x4096, .f32⟩
  | .hbm, ⟨9, _⟩ => ⟨S8x64x64x4096, .f32⟩
  | .hbm, ⟨10, _⟩ => ⟨S_, .f32⟩
  | .hbm, ⟨11, _⟩ => ⟨S8x4096, .f32⟩
  | .hbm, ⟨12, _⟩ => ⟨S8x1x1x4096, .f32⟩
  | .hbm, ⟨13, _⟩ => ⟨S_, .f32⟩
  | .hbm, ⟨14, _⟩ => ⟨S8x1x1x4096, .f32⟩
  | .hbm, ⟨15, _⟩ => ⟨S8x1x1x4096, .f32⟩
  | .hbm, ⟨16, _⟩ => ⟨S_, .f32⟩
  | .hbm, ⟨17, _⟩ => ⟨S8x1x1x4096, .f32⟩
  | .hbm, ⟨18, _⟩ => ⟨S8x1x1x4096, .f32⟩
  | .hbm, ⟨19, _⟩ => ⟨S8x64x64x4096, .f32⟩
  | .hbm, ⟨20, _⟩ => ⟨S8x64x64x4096, .f32⟩
  | _, _ => ⟨S8x64x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  shapeCasts_S8x64x64x256_S8x4096x256 : S8x64x64x256.ShapeCasts S8x4096x256
  shapeCasts_S8x4096x4096_S8x64x64x4096 : S8x4096x4096.ShapeCasts S8x64x64x4096
  bcast_S64x64x4096_S1x64x64x4096_1_2_3 : S64x64x4096.BroadcastsInDim S1x64x64x4096 (![1, 2, 3] : Fin 3 → Fin S1x64x64x4096.rank)
  bcast_S1x64x64x4096_S8x64x64x4096_0_1_2_3 : S1x64x64x4096.BroadcastsInDim S8x64x64x4096 (![0, 1, 2, 3] : Fin 4 → Fin S8x64x64x4096.rank)
  reducesTo_S8x64x64x4096_S8x4096_d1_2 : S8x64x64x4096.ReducesTo [1, 2] S8x4096
  h_S_ : 0 < S_.numel
  bcast_S8x4096_S8x1x1x4096_0_3 : S8x4096.BroadcastsInDim S8x1x1x4096 (![0, 3] : Fin 2 → Fin S8x1x1x4096.rank)
  bcast_S_S8x1x1x4096 : S_.BroadcastsInDim S8x1x1x4096 (![] : Fin 0 → Fin S8x1x1x4096.rank)
  bcast_S8x1x1x4096_S8x64x64x4096_0_1_2_3 : S8x1x1x4096.BroadcastsInDim S8x64x64x4096 (![0, 1, 2, 3] : Fin 4 → Fin S8x64x64x4096.rank)
  dot_S8x4096x256_S8x4096x256_S8x4096x4096_2_2_1_1_0_0_wf : DotDims.WF S8x4096x256 S8x4096x256 S8x4096x4096 [2] [2] [1] [1] [0] [0]

variable [Facts₀]

def dot_S8x4096x256_S8x4096x256_S8x4096x4096_2_2_1_1_0_0 : DotDims S8x4096x256 S8x4096x256 S8x4096x4096 where
  lhsContracting := [2]
  rhsContracting := [2]
  lhsNonContracting := [1]
  rhsNonContracting := [1]
  lhsBatch := [0]
  rhsBatch := [0]
  wf := dot_S8x4096x256_S8x4096x256_S8x4096x4096_2_2_1_1_0_0_wf

class Facts : Prop extends Facts₀ where

variable [Facts]
-- ==== Proof.TileValue.lean ====
/-
  One grid point's arithmetic, read at an index of its [1, 4096, 512] output block.

  The body holds a tile `fa` of 512 A-pixels, all 4096 B-pixels `fb` of the same batch, and the mask's 4096 × 512
  tile `w`. Its one stored value is, at (0, q, k),
      t q k · (one / ((∑ q', t q' k) + eps)),   t q k = (∑ c, fb[0,q,c] · fa[0,k,c]) · w[q,k]:
  the matrix product contracts the channel axis of both operands, the column total runs over all 4096 rows of
  the tile, and the reciprocal of one row is spread over the 4096 rows again.
-/
import proofs.«145271_j3435973837203_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx

/-- On the left operand's row axis the matrix product reads the output's row. -/
theorem lhs_row (j : S4096x512.Idx) (p : dot_S4096x256_S512x256_S4096x512_1_1_0_0_n_n.contr.Idx) :
    (dot_S4096x256_S512x256_S4096x512_1_1_0_0_n_n.lhsIdx j p 0).val = (j 0).val := by
  unfold DotDims.lhsIdx
  rw [dif_neg (show ¬(0 : Fin S4096x256.rank) ∈ dot_S4096x256_S512x256_S4096x512_1_1_0_0_n_n.lhsBatch by decide),
    dif_pos (show (0 : Fin S4096x256.rank) ∈ dot_S4096x256_S512x256_S4096x512_1_1_0_0_n_n.lhsNonContracting by decide)]
  rfl
/-- On the right operand's row axis it reads the output's column. -/
theorem rhs_row (j : S4096x512.Idx) (p : dot_S4096x256_S512x256_S4096x512_1_1_0_0_n_n.contr.Idx) :
    (dot_S4096x256_S512x256_S4096x512_1_1_0_0_n_n.rhsIdx j p 0).val = (j 1).val := by
  unfold DotDims.rhsIdx
  rw [dif_neg (show ¬(0 : Fin S512x256.rank) ∈ dot_S4096x256_S512x256_S4096x512_1_1_0_0_n_n.rhsBatch by decide),
    dif_pos (show (0 : Fin S512x256.rank) ∈ dot_S4096x256_S512x256_S4096x512_1_1_0_0_n_n.rhsNonContracting by decide)]
  rfl
/-- On each operand's channel axis it reads the contraction position. -/
theorem lhs_chan (j : S4096x512.Idx) (p : dot_S4096x256_S512x256_S4096x512_1_1_0_0_n_n.contr.Idx) :
    (dot_S4096x256_S512x256_S4096x512_1_1_0_0_n_n.lhsIdx j p 1).val = (p ⟨0, by decide⟩).val :=
  dot_S4096x256_S512x256_S4096x512_1_1_0_0_n_n.lhsIdx_val_of_single rfl j p
theorem rhs_chan (j : S4096x512.Idx) (p : dot_S4096x256_S512x256_S4096x512_1_1_0_0_n_n.contr.Idx) :
    (dot_S4096x256_S512x256_S4096x512_1_1_0_0_n_n.rhsIdx j p 1).val = (p ⟨0, by decide⟩).val :=
  dot_S4096x256_S512x256_S4096x512_1_1_0_0_n_n.rhsIdx_val_of_single rfl j p

/-- The body's matrix product into a zero accumulator, at (q, k): the sum over the 256 channels of the left
    operand's row `q` times the right operand's row `k` (both operands are contracted on their second axis). -/
theorem matmul_at (l : FVec Ideal S4096x256 .f32) (r : FVec Ideal S512x256 .f32) (q : Fin 4096) (k : Fin 512) :
    matmul dot_S4096x256_S512x256_S4096x512_1_1_0_0_n_n (some .fp32) l r (constant (F := Ideal) S4096x512 .f32 0x00000000#32) (ix2 q k)
      = ∑ c : Fin 256, l (ix2 q c) * r (ix2 k c) := by
  simp only [matmul]
  rw [Ideal.matmul_constant_zero_apply,
    ← Equiv.sum_comp (contrEquiv1 dot_S4096x256_S512x256_S4096x512_1_1_0_0_n_n 256 rfl rfl).symm]
  refine Finset.sum_congr rfl fun c _ => ?_
  have hc := contrEquiv1_symm_val dot_S4096x256_S512x256_S4096x512_1_1_0_0_n_n 256 rfl rfl c
  have el : dot_S4096x256_S512x256_S4096x512_1_1_0_0_n_n.lhsIdx (ix2 q k)
      ((contrEquiv1 dot_S4096x256_S512x256_S4096x512_1_1_0_0_n_n 256 rfl rfl).symm c) = ix2 q c :=
    funext fun a => Fin.ext (by
      match a with
      | ⟨0, _⟩ => exact lhs_row _ _
      | ⟨1, _⟩ => exact (lhs_chan _ _).trans hc)
  have er : dot_S4096x256_S512x256_S4096x512_1_1_0_0_n_n.rhsIdx (ix2 q k)
      ((contrEquiv1 dot_S4096x256_S512x256_S4096x512_1_1_0_0_n_n 256 rfl rfl).symm c) = ix2 k c :=
    funext fun a => Fin.ext (by
      match a with
      | ⟨0, _⟩ => exact rhs_row _ _
      | ⟨1, _⟩ => exact (rhs_chan _ _).trans hc)
  rw [el, er]

/-- The body's sum over the tile's rows, at column `k`: the sum over the 4096 rows of the entries of that column. -/
theorem colsum_at (v : FVec Ideal S4096x512 .f32) (hφ : FKind.Formats .f32)
    (hacc : (0x00000000#32 : BitVec 32) = 0x00000000#32) (k : Fin 512) :
    multiReduction .add [0] S512 v 0x00000000#32 reduces_S4096x512_S512 hφ hacc (ix1 k) = ∑ q : Fin 4096, v (ix2 q k) := by
  refine (Ideal.multiReduction_add_single v 0x00000000#32 reduces_S4096x512_S512 hφ hacc (ix1 k)).trans ?_
  refine Finset.sum_congr rfl fun q _ => congrArg v (funext fun a => Fin.ext ?_)
  match a with
  | ⟨0, _⟩ => rfl
  | ⟨1, _⟩ => rfl

/-- The masked product tile: (fb · faᵀ) ⊙ w, at (q, k). -/
def t (x0 : Vec Ideal S1x512x256 .f32) (x1 : Vec Ideal S1x4096x256 .f32) (x2 : Vec Ideal S4096x512 .f32)
    (q : Fin 4096) (k : Fin 512) : EReal :=
  (∑ c : Fin 256, x1 (ix3 (0 : Fin 1) q c) * x0 (ix3 (0 : Fin 1) k c)) * x2 (ix2 q k)

/-- The masked product of two operand matrices and a mask tile, at (q, k). -/
theorem tile_at (y1 : FVec Ideal S4096x256 .f32) (y0 : FVec Ideal S512x256 .f32) (y2 : FVec Ideal S4096x512 .f32)
    (q : Fin 4096) (k : Fin 512) :
    mulf (matmul dot_S4096x256_S512x256_S4096x512_1_1_0_0_n_n (some .fp32) y1 y0
        (constant (F := Ideal) S4096x512 .f32 0x00000000#32)) y2 (ix2 q k)
      = (∑ c : Fin 256, y1 (ix2 q c) * y0 (ix2 k c)) * y2 (ix2 q k) := by
  rw [mulf_apply, matmul_at]

/-- What the body stores, at (u, q, k) of its block. -/
theorem pay_at (x0 : Vec Ideal S1x512x256 .f32) (x1 : Vec Ideal S1x4096x256 .f32) (x2 : Vec Ideal S4096x512 .f32)
    (u : Fin 1) (q : Fin 4096) (k : Fin 512) :
    k0_pay1 x0 x1 x2 (ix3 u q k)
      = t x0 x1 x2 q k * Ideal.div (Ideal.ofBits .f32 0x3F800000#32)
          ((∑ q' : Fin 4096, t x0 x1 x2 q' k) + Ideal.ofBits .f32 0x322BCC77#32) := by
  unfold k0_pay1
  rw [shapeCast_ab_1ab_apply, mulf_apply, tile_at, broadcastTo_1b_ab_apply, divf_apply, addf_apply, broadcast_apply,
    broadcast_apply, shapeCast_a_1a_apply, colsum_at]
  simp only [tile_at, shapeCast_self, shapeCast_1ab_ab_apply, Ideal.ofBits_def]
  rfl

end Cert.KernelIdeal.Tile

end
-- ==== Proof.CorrSpec.lean ====
/-
  The function both programs compute, stated once over abstract arrays.

  A feature array is [batch 8, pixel 4096, channel 256]; the mask is [B-pixel 4096, A-pixel 4096].
  For batch `b`, B-pixel `q` and A-pixel `k` the masked correlation is
      mcorr b q k = (∑ c, fB[b,q,c] · fA[b,k,c]) · W[q,k],
  and the result is that entry times the reciprocal of its column's total plus a fixed small constant:
      normedAt b q k = mcorr b q k · (one / ((∑ q', mcorr b q' k) + eps)).
  The two literals are kept as the binary words both programs carry; they are never evaluated.
  The only law used between the two programs is that a sum over the 4096 B-pixels is the double sum over the
  64 × 64 image rows and columns (`sum_pixels`): a re-indexing of a finite sum, valid in any commutative
  monoid, so no finiteness of the inputs is needed.
-/
import Idealize.ShloMosaic.PureOps.Ideal
import Idealize.ShloMosaic.Lib.ValueIdx

noncomputable section

namespace Cert.Corr

open Idealize.ShloMosaic Idealize.ShloMosaic.ValueIdx

/-- The masked correlation of B-pixel `q` with A-pixel `k` in batch `b`. -/
def mcorr (fA fB : (⟨3, ![8, 4096, 256]⟩ : Shape).Idx → EReal) (W : (⟨2, ![4096, 4096]⟩ : Shape).Idx → EReal)
    (b : Fin 8) (q k : Fin 4096) : EReal :=
  (∑ c : Fin 256, fB (ix3 b q c) * fA (ix3 b k c)) * W (ix2 q k)

/-- The renormalized entry: the masked correlation times the reciprocal of (its column total over the B-pixels plus
    the constant). -/
def normedAt (fA fB : (⟨3, ![8, 4096, 256]⟩ : Shape).Idx → EReal) (W : (⟨2, ![4096, 4096]⟩ : Shape).Idx → EReal)
    (b : Fin 8) (q k : Fin 4096) : EReal :=
  mcorr fA fB W b q k
    * Ideal.div (Ideal.ofBits .f32 0x3F800000#32)
        ((∑ q' : Fin 4096, mcorr fA fB W b q' k) + Ideal.ofBits .f32 0x322BCC77#32)

/-- The whole [8, 4096, 4096] result. -/
def normed (fA fB : (⟨3, ![8, 4096, 256]⟩ : Shape).Idx → EReal) (W : (⟨2, ![4096, 4096]⟩ : Shape).Idx → EReal) :
    (⟨3, ![8, 4096, 4096]⟩ : Shape).Idx → EReal :=
  fun i => normedAt fA fB W (i 0) (i 1) (i 2)

theorem normed_ix3 (fA fB : (⟨3, ![8, 4096, 256]⟩ : Shape).Idx → EReal) (W : (⟨2, ![4096, 4096]⟩ : Shape).Idx → EReal)
    (b : Fin 8) (q k : Fin 4096) : normed fA fB W (ix3 b q k) = normedAt fA fB W b q k := rfl

/-- The result at an index named by its coordinates. -/
theorem normed_of_coords (fA fB : (⟨3, ![8, 4096, 256]⟩ : Shape).Idx → EReal) (W : (⟨2, ![4096, 4096]⟩ : Shape).Idx → EReal)
    (i : (⟨3, ![8, 4096, 4096]⟩ : Shape).Idx) (b : Fin 8) (q k : Fin 4096)
    (h0 : (i 0).val = b.val) (h1 : (i 1).val = q.val) (h2 : (i 2).val = k.val) :
    normed fA fB W i = normedAt fA fB W b q k := by
  have e : i = ix3 b q k := funext fun a => Fin.ext (by
    match a with
    | ⟨0, _⟩ => exact h0
    | ⟨1, _⟩ => exact h1
    | ⟨2, _⟩ => exact h2)
  rw [e]; rfl

/-- Pixel `64·h + w` of the flattened image. -/
def pix (h w : Fin 64) : Fin 4096 := ⟨64 * h.val + w.val, by have := h.isLt; have := w.isLt; omega⟩

/-- A pixel is its row and column: `q ↦ (q / 64, q % 64)`, inverse `pix`. -/
def pixEquiv : Fin 4096 ≃ Fin 64 × Fin 64 where
  toFun q := (⟨q.val / 64, by have := q.isLt; omega⟩, ⟨q.val % 64, Nat.mod_lt _ (by decide)⟩)
  invFun p := pix p.1 p.2
  left_inv q := Fin.ext (by show 64 * (q.val / 64) + q.val % 64 = q.val; omega)
  right_inv p := Prod.ext (Fin.ext (by show (64 * p.1.val + p.2.val) / 64 = p.1.val; have := p.2.isLt; omega))
    (Fin.ext (by show (64 * p.1.val + p.2.val) % 64 = p.2.val; have := p.2.isLt; omega))

/-- A sum over the 4096 pixels is the double sum over the 64 rows and 64 columns. -/
theorem sum_pixels {M : Type*} [AddCommMonoid M] (f : Fin 4096 → M) :
    ∑ q : Fin 4096, f q = ∑ h : Fin 64, ∑ w : Fin 64, f (pix h w) := by
  rw [← Fintype.sum_prod_type (f := fun p : Fin 64 × Fin 64 => f (pix p.1 p.2))]
  exact (Equiv.sum_comp pixEquiv.symm f).symm

end Cert.Corr

end
-- ==== Proof.PointValue.lean ====
/-
  One grid point's stored block as a block of the whole result.

  A point is a pair (batch b, column tile kt). If its `fa` tile is rows 512·kt … 512·kt + 511 of batch `b` of the
  A-features, its `fb` block is all of batch `b` of the B-features and its mask tile is columns 512·kt … of the
  mask, then what it stores at (0, q, k) is the specification's entry (b, q, 512·kt + k): the column total the body
  takes over its tile's 4096 rows is the total over all B-pixels, because the tile holds every row.
-/
import proofs.«145271_j3435973837203_2_alg».proof.Proof.TileValue
import proofs.«145271_j3435973837203_2_alg».proof.Proof.CorrSpec

noncomputable section

namespace Cert.KernelIdeal.Tile

open Cert.KernelIdeal Cert.KernelIdeal.Gen Idealize.ShloMosaic Idealize.ShloMosaic.ValueIdx

/-- A-pixel `512·kt + k`: column `k` of the `kt`-th tile of 512 columns. -/
def col (kt : Fin 8) (k : Fin 512) : Fin 4096 := ⟨512 * kt.val + k.val, by have := kt.isLt; have := k.isLt; omega⟩

theorem col_val (kt : Fin 8) (k : Fin 512) : (col kt k).val = 512 * kt.val + k.val := rfl

/-- The stored value at (u, q, k), for blocks that are the named parts of the whole arrays. -/
theorem point_eq (fA fB : S8x4096x256.Idx → EReal) (W : S4096x4096.Idx → EReal)
    (x0 : Vec Ideal S1x512x256 .f32) (x1 : Vec Ideal S1x4096x256 .f32) (x2 : Vec Ideal S4096x512 .f32)
    (b : Fin 8) (kt : Fin 8)
    (h0 : ∀ (u : Fin 1) (k : Fin 512) (c : Fin 256), x0 (ix3 u k c) = fA (ix3 b (col kt k) c))
    (h1 : ∀ (u : Fin 1) (q : Fin 4096) (c : Fin 256), x1 (ix3 u q c) = fB (ix3 b q c))
    (h2 : ∀ (q : Fin 4096) (k : Fin 512), x2 (ix2 q k) = W (ix2 q (col kt k)))
    (u : Fin 1) (q : Fin 4096) (k : Fin 512) :
    k0_pay1 x0 x1 x2 (ix3 u q k) = Corr.normedAt fA fB W b q (col kt k) := by
  rw [pay_at]
  unfold t Corr.normedAt Corr.mcorr
  simp only [h0, h1, h2]

/-- The same at any index `y` of the block, against any index `i` of the result with the matching coordinates. -/
theorem point_any (fA fB : S8x4096x256.Idx → EReal) (W : S4096x4096.Idx → EReal)
    (x0 : Vec Ideal S1x512x256 .f32) (x1 : Vec Ideal S1x4096x256 .f32) (x2 : Vec Ideal S4096x512 .f32)
    (b : Fin 8) (kt : Fin 8)
    (h0 : ∀ (u : Fin 1) (k : Fin 512) (c : Fin 256), x0 (ix3 u k c) = fA (ix3 b (col kt k) c))
    (h1 : ∀ (u : Fin 1) (q : Fin 4096) (c : Fin 256), x1 (ix3 u q c) = fB (ix3 b q c))
    (h2 : ∀ (q : Fin 4096) (k : Fin 512), x2 (ix2 q k) = W (ix2 q (col kt k)))
    (y : S1x4096x512.Idx) (i : S8x4096x4096.Idx)
    (hi0 : (i 0).val = b.val) (hi1 : (i 1).val = (y 1).val) (hi2 : (i 2).val = 512 * kt.val + (y 2).val) :
    k0_pay1 x0 x1 x2 y = Corr.normed fA fB W i := by
  obtain ⟨u, q, k, rfl⟩ : ∃ (u : Fin 1) (q : Fin 4096) (k : Fin 512), y = ix3 u q k := ⟨y 0, y 1, y 2, eq_ix3 y⟩
  rw [point_eq fA fB W x0 x1 x2 b kt h0 h1 h2 u q k]
  exact (Corr.normed_of_coords fA fB W i b q (col kt k) hi0 hi1 hi2).symm

end Cert.KernelIdeal.Tile

end
-- ==== Proof.BlockValue.lean ====
/-
  The kernel's output array after the region: the specification of the three flattened arrays.

  The grid is (column tile kt, batch b), 8 × 8 points. At a point the output block is rows 0 … 4095 and columns
  512·kt … 512·kt + 511 of batch `b`; the A-feature block is the same batch and the same 512 pixels, the B-feature block
  is all 4096 pixels of the batch, the mask block is the same 512 columns. So each point writes back a block of ONE
  function of the arrays the region finds, and the 64 blocks tile the [8, 4096, 4096] array: the point that covers
  index (b, q, k) is (k / 512, b).
-/
import proofs.«145271_j3435973837203_2_alg».proof.Proof.Gen.KernelIdeal.Frame
import proofs.«145271_j3435973837203_2_alg».proof.Proof.PointValue
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem hz3 : (![0, 0, 0] : Fin 3 → Nat) = fun _ => 0 := funext fun a => by fin_cases a <;> rfl
theorem hz2 : (![0, 0] : Fin 2 → Nat) = fun _ => 0 := funext fun a => by fin_cases a <;> rfl

/-- The output array as one function of the arrays the region finds. -/
abbrev G (c : Dev nD) : S8x4096x4096.Idx → EReal :=
  Corr.normed (V m c main_v0) (V m c main_v1) (V m c main_v2)

/-- How the four windows' block indices are related at every grid point, and their ranges. -/
theorem idx_facts : ∀ t : Fin cfg0.N,
    win0_0.index t (0 : Fin 3) = win0_3.index t (0 : Fin 3)
    ∧ win0_0.index t (1 : Fin 3) = win0_3.index t (2 : Fin 3)
    ∧ win0_0.index t (2 : Fin 3) = 0
    ∧ win0_1.index t (0 : Fin 3) = win0_3.index t (0 : Fin 3)
    ∧ win0_1.index t (1 : Fin 3) = 0
    ∧ win0_1.index t (2 : Fin 3) = 0
    ∧ win0_2.index t (0 : Fin 2) = 0
    ∧ win0_2.index t (1 : Fin 2) = win0_3.index t (2 : Fin 3)
    ∧ win0_3.index t (0 : Fin 3) ≤ 7
    ∧ win0_3.index t (1 : Fin 3) = 0
    ∧ win0_3.index t (2 : Fin 3) ≤ 7 :=
  (by decide +kernel : ∀ t : Fin grid0.N, _)

/-- Every (batch, column tile) pair is some point's output block. -/
theorem idx_onto : ∀ (b : Fin 8) (kt : Fin 8), ∃ t : Fin cfg0.N, win0_3.index t = ![b.val, 0, kt.val] :=
  (by decide +kernel : ∀ (b : Fin 8) (kt : Fin 8), ∃ t : Fin grid0.N, win0_3.index t = ![b.val, 0, kt.val])

/-- What point `t` writes back is block `t` of `G`. -/
theorem flushed_eq (c : Dev nD) (t : Fin cfg0.N) :
    (dats m 0 c).flushed 3 t = ((cfg0.win 3).blk t).view.read (Elt Ideal) (G m c) := by
  show (cfg0.win 3).cut (grid0.coords t) ((dats m 0 c).after 3 t) = _
  rw [after0_3]
  unfold out0_3
  rw [View.canon_unit_zero hz3]
  simp only [View.ld_unit_zero (S := S1x512x256) hz3, View.ld_unit_zero (S := S1x4096x256) hz3,
    View.ld_unit_zero (S := S4096x512) hz2]
  obtain ⟨e00, e01, e02, e10, e11, e12, e20, e21, b0, b1, b2⟩ := idx_facts t
  funext j
  show k0_pay1 (iblk m c 0 t) (iblk m c 1 t) (iblk m c 2 t) j
    = Corr.normed (V m c main_v0) (V m c main_v1) (V m c main_v2) (((cfg0.win 3).blk t).view.emb j)
  refine Tile.point_any (V m c main_v0) (V m c main_v1) (V m c main_v2) (iblk m c 0 t) (iblk m c 1 t) (iblk m c 2 t)
    ⟨win0_3.index t (0 : Fin 3), by omega⟩ ⟨win0_3.index t (2 : Fin 3), by omega⟩ ?_ ?_ ?_ j
    (((cfg0.win 3).blk t).view.emb j) ?_ ?_ ?_
  · intro u k c'
    show V m c main_v0 (((cfg0.win 0).blk t).view.emb (ix3 u k c')) = V m c main_v0 _
    refine congrArg (V m c main_v0) (funext fun a => Fin.ext ?_)
    have hu : u.val = 0 := by omega
    match a with
    | ⟨0, _⟩ => show win0_0.index t (0 : Fin 3) * 1 + 1 * u.val = win0_3.index t (0 : Fin 3); omega
    | ⟨1, _⟩ => show win0_0.index t (1 : Fin 3) * 512 + 1 * k.val = 512 * win0_3.index t (2 : Fin 3) + k.val; omega
    | ⟨2, _⟩ => show win0_0.index t (2 : Fin 3) * 256 + 1 * c'.val = c'.val; omega
  · intro u q c'
    show V m c main_v1 (((cfg0.win 1).blk t).view.emb (ix3 u q c')) = V m c main_v1 _
    refine congrArg (V m c main_v1) (funext fun a => Fin.ext ?_)
    have hu : u.val = 0 := by omega
    match a with
    | ⟨0, _⟩ => show win0_1.index t (0 : Fin 3) * 1 + 1 * u.val = win0_3.index t (0 : Fin 3); omega
    | ⟨1, _⟩ => show win0_1.index t (1 : Fin 3) * 4096 + 1 * q.val = q.val; omega
    | ⟨2, _⟩ => show win0_1.index t (2 : Fin 3) * 256 + 1 * c'.val = c'.val; omega
  · intro q k
    show V m c main_v2 (((cfg0.win 2).blk t).view.emb (ix2 q k)) = V m c main_v2 _
    refine congrArg (V m c main_v2) (funext fun a => Fin.ext ?_)
    match a with
    | ⟨0, _⟩ => show win0_2.index t (0 : Fin 2) * 4096 + 1 * q.val = q.val; omega
    | ⟨1, _⟩ => show win0_2.index t (1 : Fin 2) * 512 + 1 * k.val = 512 * win0_3.index t (2 : Fin 3) + k.val; omega
  · have hj : (j 0).val < 1 := (j 0).isLt
    show win0_3.index t (0 : Fin 3) * 1 + 1 * (j 0).val = win0_3.index t (0 : Fin 3); omega
  · show win0_3.index t (1 : Fin 3) * 4096 + 1 * (j 1).val = (j 1).val; omega
  · show win0_3.index t (2 : Fin 3) * 512 + 1 * (j 2).val = 512 * win0_3.index t (2 : Fin 3) + (j 2).val; omega

/-- An index of the array is in point `t`'s block iff each coordinate is in the block's range on its axis. -/
theorem mem_blk (t : Fin cfg0.N) (i : S8x4096x4096.Idx) :
    i ∈ ((cfg0.win 3).blk t).view.set ↔ ∀ a : Fin 3, win0_3.index t a * S1x4096x512.size a ≤ (i a).val
      ∧ (i a).val < win0_3.index t a * S1x4096x512.size a + S1x4096x512.size a := by
  show i ∈ ((View.whole main_v3).slice (win0_3.rect t)).set ↔ _
  rw [View.set_slice_whole, Rect.mem_set_unit]
  exact Iff.rfl

/-- The 64 output blocks tile the array: index (b, q, k) is in the block of the point with batch `b` and column
    tile `k / 512`. -/
theorem cover (i : S8x4096x4096.Idx) :
    ∃ t : Fin cfg0.N, (cfg0.win 3).flush t = true ∧ i ∈ ((cfg0.win 3).blk t).view.set := by
  have hi0 : (i 0).val < 8 := (i 0).isLt
  have hi1 : (i 1).val < 4096 := (i 1).isLt
  have hi2 : (i 2).val < 4096 := (i 2).isLt
  obtain ⟨t, ht⟩ := idx_onto ⟨(i 0).val, hi0⟩ ⟨(i 2).val / 512, by omega⟩
  have q0 : win0_3.index t (0 : Fin 3) = (i 0).val := congrFun ht 0
  have q1 : win0_3.index t (1 : Fin 3) = 0 := congrFun ht 1
  have q2 : win0_3.index t (2 : Fin 3) = (i 2).val / 512 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 4096 ≤ (i 1).val ∧ (i 1).val < win0_3.index t (1 : Fin 3) * 4096 + 4096; omega
  | ⟨2, _⟩ => show win0_3.index t (2 : Fin 3) * 512 ≤ (i 2).val ∧ (i 2).val < win0_3.index t (2 : Fin 3) * 512 + 512; omega

/-- The output array after the region is `G`. -/
theorem final (c : Dev nD) : (dats m 0 c).arrAt 3 cfg0.N = G m c :=
  (dats m 0 c).arrAt_eq_of_cover 3 (G m c) (fun t _ => flushed_eq m c t) cover

end Cert.KernelIdeal.Blocks

end
-- ==== Proof.KernelRun.lean ====
/-
  The kernel program's run, with its result named.

  Before the region the program flattens the two feature arrays' image axes ([8, 64, 64, 256] to [8, 4096, 256]) and the
  mask's ([64, 64, 4096] to [4096, 4096]); after it, it un-flattens the [8, 4096, 4096] output to [8, 64, 64, 4096].
  So the result is the specification of the three flattened arguments, un-flattened, and the arguments end unchanged.
-/
import proofs.«145271_j3435973837203_2_alg».proof.Proof.Gen.KernelIdeal.Frame
import proofs.«145271_j3435973837203_2_alg».proof.Proof.BlockValue
import Idealize.ShloMosaic.Lib.StableHlo.Run
import Idealize.ShloMosaic.Lib.Pipeline.Value

noncomputable section

namespace Cert.KernelIdeal.RunValue

open Cert.KernelIdeal Cert.KernelIdeal.Gen Idealize.ShloMosaic Idealize.ShloMosaic.TcCoe Idealize.SL.Sem
open Idealize.ShloMosaic.StableHlo
open Idealize.ShloMosaic.Pipeline (Dat)

variable (m : (ℓ : Loc nD τ sig) → Buf (Elt Ideal) ℓ) (ρ : Dev nD → PrngReg)

/-- The region finds the A-features flattened. -/
theorem V_main_v0 (c : Dev nD) :
    (V m c main_v0 : S8x4096x256.Idx → EReal)
      = shapeCast S8x4096x256 (m ((c : Thread nD τ).loc main_arg0)) shapeCasts_S8x64x64x256_S8x4096x256 := by
  show StableHlo.after hostOps0 (fun b => m (c, b)) (Proc.devRef .tc main_v0) = _
  after_results
  rfl
/-- The region finds the B-features flattened. -/
theorem V_main_v1 (c : Dev nD) :
    (V m c main_v1 : S8x4096x256.Idx → EReal)
      = shapeCast S8x4096x256 (m ((c : Thread nD τ).loc main_arg1)) shapeCasts_S8x64x64x256_S8x4096x256 := by
  show StableHlo.after hostOps0 (fun b => m (c, b)) (Proc.devRef .tc main_v1) = _
  after_results
  rfl
/-- The region finds the mask flattened. -/
theorem V_main_v2 (c : Dev nD) :
    (V m c main_v2 : S4096x4096.Idx → EReal)
      = shapeCast S4096x4096 (m ((c : Thread nD τ).loc main_arg2)) shapeCasts_S64x64x4096_S4096x4096 := by
  show StableHlo.after hostOps0 (fun b => m (c, b)) (Proc.devRef .tc main_v2) = _
  after_results
  rfl

/-- The result buffer after the lines that follow the region: the output array, un-flattened. -/
theorem tail_eq (c : Dev nD) :
    Pipeline.afterTail₀ cfgs (dats m) 0 (V0 m) [hostOps1] c main_v4
      = shapeCast S8x64x64x4096 ((dats m 0 c).arrAt 3 cfg0.N) shapeCasts_S8x4096x4096_S8x64x64x4096 := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.tc.devRef main_v3)
      = (dats m 0 c).arrAt 3 cfg0.N :=
    Pipeline.withArrays_arr spec0 launch0.win.arr_inj c _ _ 3
  rw [e]
  rfl

/-- The result buffer after the whole program, as a function of the arguments. -/
theorem result_eq (c : Dev nD) :
    Pipeline.afterTail₀ cfgs (dats m) 0 (V0 m) [hostOps1] c main_v4
      = shapeCast S8x64x64x4096
          (Corr.normed
            (shapeCast S8x4096x256 (m ((c : Thread nD τ).loc main_arg0)) shapeCasts_S8x64x64x256_S8x4096x256)
            (shapeCast S8x4096x256 (m ((c : Thread nD τ).loc main_arg1)) shapeCasts_S8x64x64x256_S8x4096x256)
            (shapeCast S4096x4096 (m ((c : Thread nD τ).loc main_arg2)) shapeCasts_S64x64x4096_S4096x4096))
          shapeCasts_S8x4096x4096_S8x64x64x4096 := by
  rw [tail_eq, Blocks.final]
  unfold Blocks.G
  rw [V_main_v0, V_main_v1, V_main_v2]

/-- Every weakly fair execution of the kernel program terminates with its result at that function of the arguments,
    and the arguments unchanged. -/
theorem run : θ_run defs (onTc (τ := τ) (main (F := Ideal))) ⟨m, fun _ => 0, ρ⟩ fun r => ∀ c : Dev nD,
      r.2.mem ((c : Thread nD τ).loc main_v4)
        = shapeCast S8x64x64x4096
          (Corr.normed
            (shapeCast S8x4096x256 (m ((c : Thread nD τ).loc main_arg0)) shapeCasts_S8x64x64x256_S8x4096x256)
            (shapeCast S8x4096x256 (m ((c : Thread nD τ).loc main_arg1)) shapeCasts_S8x64x64x256_S8x4096x256)
            (shapeCast S4096x4096 (m ((c : Thread nD τ).loc main_arg2)) shapeCasts_S64x64x4096_S4096x4096))
          shapeCasts_S8x4096x4096_S8x64x64x4096
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
      ⟨((h c).2 main_v4 (Pipeline.mem_restRefs_of main_v4 (by decide) (by decide))).trans (result_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c)⟩)
    (run_main m ρ)

end Cert.KernelIdeal.RunValue

end
-- ==== Proof.RefValue.lean ====
/-
  The reference program's result, read index by index, is the renormalized masked correlation of the
  flattened arrays, un-flattened.

  The reference multiplies the batched channel contraction of the flattened feature arrays by the mask kept in its
  [64, 64, 4096] form, sums over the two image axes, adds the constant, takes the reciprocal and multiplies back.
  At (b, h, w, k) its entry is the specification's at (b, 64·h + w, k): the flattened mask at (64·h + w, k) is the
  mask at (h, w, k), and the sum over (h, w) of the entries of column (b, k) is the sum over the 4096 pixels.
-/
import proofs.«145271_j3435973837203_2_alg».proof.Proof.Gen.ReferenceIdeal.Read
import proofs.«145271_j3435973837203_2_alg».proof.Proof.CorrSpec
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.ValueIdx
open Cert.Corr

variable (x0 x1 : (⟨S8x64x64x256, .f32⟩ : BufTy).Contents (Elt Ideal)) (x2 : (⟨S64x64x4096, .f32⟩ : BufTy).Contents (Elt Ideal))
variable (hW : S64x64x4096.ShapeCasts ⟨2, ![4096, 4096]⟩)

/-- The flattened mask at (64·h + w, k) is the mask at (h, w, k). -/
theorem mask_at (h w : Fin 64) (k : Fin 4096) :
    shapeCast ⟨2, ![4096, 4096]⟩ x2 hW (ix2 (pix h w) k) = x2 (ix3 h w k) :=
  shapeCast_apply x2 hW _ _ (by
    rw [Shape.rowMajor_val_three, Shape.rowMajor_val_two]
    show (h.val * 64 + w.val) * 4096 + k.val = (64 * h.val + w.val) * 4096 + k.val
    omega)

/-- The reference's masked correlation at (b, h, w, k) is the specification's at (b, 64·h + w, k). -/
theorem masked_at (b : Fin 8) (h w : Fin 64) (k : Fin 4096) :
    val_main_v6 (F := Ideal) x0 x1 x2 (ix4 b h w k)
      = mcorr (val_main_v0 (F := Ideal) x0) (val_main_v1 (F := Ideal) x1) (shapeCast ⟨2, ![4096, 4096]⟩ x2 hW) b (pix h w) k := by
  have hb := b.isLt; have hh := h.isLt; have hw := w.isLt; have hk := k.isLt
  have el : ∀ c : Fin 256, lidx_main_v2 (idx_main_v3 (ix4 b h w k)) c = ix3 b (pix h w) c := fun c => funext fun a => Fin.ext (by
    match a with
    | ⟨0, _⟩ => show (((b.val * 64 + h.val) * 64 + w.val) * 4096 + k.val) / 16777216 = b.val; omega
    | ⟨1, _⟩ => show (((b.val * 64 + h.val) * 64 + w.val) * 4096 + k.val) / 4096 % 4096 = 64 * h.val + w.val; omega
    | ⟨2, _⟩ => rfl)
  have er : ∀ c : Fin 256, ridx_main_v2 (idx_main_v3 (ix4 b h w k)) c = ix3 b k c := fun c => funext fun a => Fin.ext (by
    match a with
    | ⟨0, _⟩ => show (((b.val * 64 + h.val) * 64 + w.val) * 4096 + k.val) / 16777216 = b.val; omega
    | ⟨1, _⟩ => show (((b.val * 64 + h.val) * 64 + w.val) * 4096 + k.val) % 4096 = k.val; omega
    | ⟨2, _⟩ => rfl)
  have em : idx_main_v4 (idx_main_v5 (ix4 b h w k)) = ix3 h w k := funext fun a => Fin.ext (by
    match a with
    | ⟨0, _⟩ => rfl
    | ⟨1, _⟩ => rfl
    | ⟨2, _⟩ => rfl)
  rw [val_main_v6_apply, val_main_v3_apply, val_main_v2_apply, val_main_v5_apply, val_main_v4_apply, em]
  unfold mcorr
  rw [mask_at]
  simp only [el, er, Ideal.mulf_def]

/-- The reduced index keeps the batch and the A-pixel. -/
theorem drop_batch (i : S8x64x64x4096.Idx) : (reducesTo_S8x64x64x4096_S8x4096_d1_2.drop i 0).val = (i 0).val :=
  Shape.ReducesTo.drop_apply_val_of_eq _ i 0 0
theorem drop_apix (i : S8x64x64x4096.Idx) : (reducesTo_S8x64x64x4096_S8x4096_d1_2.drop i 1).val = (i 3).val :=
  Shape.ReducesTo.drop_apply_val_of_eq _ i 1 3

/-- The reference's sum over the two image axes, at (b, k): the sum over the 4096 pixels of column (b, k). -/
theorem colsum_at (b : Fin 8) (k : Fin 4096) :
    val_main_v7 (F := Ideal) x0 x1 x2 (ix2 b k)
      = ∑ q : Fin 4096, mcorr (val_main_v0 (F := Ideal) x0) (val_main_v1 (F := Ideal) x1) (shapeCast ⟨2, ![4096, 4096]⟩ x2 hW) b q k := by
  unfold val_main_v7
  rw [hostReduceAdd_apply]
  unfold Ideal.hostReduceAdd
  rw [val_main_cst_apply, Ideal.ofBits_def, Ideal.ofBits_zero_f32, zero_add, sum_pixels,
    ← Fintype.sum_prod_type (f := fun p : Fin 64 × Fin 64 =>
      mcorr (val_main_v0 (F := Ideal) x0) (val_main_v1 (F := Ideal) x1) (shapeCast ⟨2, ![4096, 4096]⟩ x2 hW) b (pix p.1 p.2) k)]
  refine Finset.sum_nbij' (fun i : S8x64x64x4096.Idx => ((i 1, i 2) : Fin 64 × Fin 64)) (fun p => ix4 b p.1 p.2 k)
    (fun _ _ => Finset.mem_univ _) (fun p _ => ?_) (fun i hi => ?_) (fun p _ => rfl) (fun i hi => ?_)
  · refine Finset.mem_filter.mpr ⟨Finset.mem_univ _, funext fun a => Fin.ext ?_⟩
    match a with
    | ⟨0, _⟩ => exact drop_batch _
    | ⟨1, _⟩ => exact drop_apix _
  · obtain ⟨b', h, w, k', rfl⟩ : ∃ (b' : Fin 8) (h w : Fin 64) (k' : Fin 4096), i = ix4 b' h w k' :=
      ⟨i 0, i 1, i 2, i 3, eq_ix4 i⟩
    have hd := (Finset.mem_filter.mp hi).2
    obtain rfl : b' = b := Fin.ext ((drop_batch _).symm.trans (congrArg (fun j : S8x4096.Idx => (j 0).val) hd))
    obtain rfl : k' = k := Fin.ext ((drop_apix _).symm.trans (congrArg (fun j : S8x4096.Idx => (j 1).val) hd))
    rfl
  · obtain ⟨b', h, w, k', rfl⟩ : ∃ (b' : Fin 8) (h w : Fin 64) (k' : Fin 4096), i = ix4 b' h w k' :=
      ⟨i 0, i 1, i 2, i 3, eq_ix4 i⟩
    have hd := (Finset.mem_filter.mp hi).2
    obtain rfl : b' = b := Fin.ext ((drop_batch _).symm.trans (congrArg (fun j : S8x4096.Idx => (j 0).val) hd))
    obtain rfl : k' = k := Fin.ext ((drop_apix _).symm.trans (congrArg (fun j : S8x4096.Idx => (j 1).val) hd))
    exact masked_at x0 x1 x2 hW b' h w k'

/-- The reference's result is the specification of the flattened arrays, un-flattened. -/
theorem result_eq (hO : (⟨3, ![8, 4096, 4096]⟩ : Shape).ShapeCasts S8x64x64x4096) :
    val_main_v14 (F := Ideal) x0 x1 x2
      = shapeCast S8x64x64x4096 (normed (val_main_v0 (F := Ideal) x0) (val_main_v1 (F := Ideal) x1) (shapeCast ⟨2, ![4096, 4096]⟩ x2 hW)) hO := by
  funext i
  obtain ⟨b, h, w, k, rfl⟩ : ∃ (b : Fin 8) (h w : Fin 64) (k : Fin 4096), i = ix4 b h w k := ⟨i 0, i 1, i 2, i 3, eq_ix4 i⟩
  have hb := b.isLt; have hh := h.isLt; have hw := w.isLt; have hk := k.isLt
  rw [shapeCast_apply _ hO (ix4 b h w k) (ix3 b (pix h w) k) (by
      rw [Shape.rowMajor_val_three, Shape.rowMajor_val_four]
      show (b.val * 4096 + (64 * h.val + w.val)) * 4096 + k.val = ((b.val * 64 + h.val) * 64 + w.val) * 4096 + k.val
      omega), normed_ix3]
  have e8 : idx_main_v8 (idx_main_v13 (ix4 b h w k)) = ix2 b k := funext fun a => Fin.ext (by
    match a with
    | ⟨0, _⟩ => rfl
    | ⟨1, _⟩ => rfl)
  rw [val_main_v14_apply, val_main_v13_apply, val_main_v12_apply, val_main_v11_apply, val_main_cst_1_apply,
    val_main_v10_apply, val_main_v9_apply, val_main_cst_0_apply, val_main_v8_apply, e8, colsum_at x0 x1 x2 hW,
    masked_at x0 x1 x2 hW]
  rfl

end Cert.ReferenceIdeal.RefValue

end
-- ==== Proof.lean ====
/-
  The kernel computes a correlation layer: for each batch, the inner products of every B-pixel's features with every
  A-pixel's, multiplied entrywise by a fixed mask, and each column (one A-pixel, all 4096 B-pixels) divided by its own
  total plus a small constant — written as a product with the reciprocal. It does so tile by tile: a grid point holds
  512 A-pixels of one batch and ALL B-pixels of that batch, so the column totals are complete inside one point.
  The reference does the same on whole arrays, with the B-pixel axis kept as the 64 × 64 image.

  Over the extended reals both results are ONE function of the three arguments (CorrSpec.lean): the same contraction
  over the 256 channels, the same mask entry, the same two literals; the kernel's sum over the 4096 rows of a tile and
  the reference's sum over the two image axes are one finite sum re-indexed (q = 64·h + w). Nothing is distributed or
  cancelled, so the finiteness of the inputs is not used.

  TileValue.lean reads the body's arithmetic at an index; PointValue.lean and BlockValue.lean show that every grid
  point writes back a block of the one function and that the 64 blocks tile the output array; KernelRun.lean adds the
  flattening before the region and the un-flattening after it; RefValue.lean reads the reference at an index. Here the
  two runs are put side by side. The three frames are the generated ones (the reference's is its run with the result
  dropped), and the idealization rewrote nothing, so there is nothing to preserve.
-/
import proofs.«145271_j3435973837203_2_alg».proof.Defs
import proofs.«145271_j3435973837203_2_alg».proof.Proof.Gen.Kernel
import proofs.«145271_j3435973837203_2_alg».proof.Proof.Gen.Kernel.Frame
import proofs.«145271_j3435973837203_2_alg».proof.Proof.Gen.KernelIdeal
import proofs.«145271_j3435973837203_2_alg».proof.Proof.Gen.KernelIdeal.Frame
import proofs.«145271_j3435973837203_2_alg».proof.Proof.Gen.ReferenceIdeal
import proofs.«145271_j3435973837203_2_alg».proof.Proof.Gen.ReferenceIdeal.Run
import proofs.«145271_j3435973837203_2_alg».proof.Proof.Gen.ReferenceIdeal.Read
import proofs.«145271_j3435973837203_2_alg».proof.Proof.Gen.Pre_finite_inputs
import proofs.«145271_j3435973837203_2_alg».proof.Proof.KernelRun
import proofs.«145271_j3435973837203_2_alg».proof.Proof.RefValue

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no region: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealized kernel is the kernel's own text read over the extended reals. -/
theorem preserves : Cert.preserves_Kernel_KernelIdeal := trivial

/-- From memories that agree on the arguments both programs end with the renormalized masked correlation of the
    flattened arguments, un-flattened. -/
theorem algebraic : Cert.algebraic_KernelIdeal_ReferenceIdeal := by
  intro m ρ m' ρ' _ hagree
  refine ⟨_, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq,
    Cert.ReferenceIdeal.RefValue.result_eq _ _ _ Cert.KernelIdeal.Gen.shapeCasts_S64x64x4096_S4096x4096
      Cert.ReferenceIdeal.Gen.shapeCasts_S8x4096x4096_S8x64x64x4096,
    (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
